-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x256 : Shape := ⟨3, ![4, 2048, 256]⟩
abbrev S_ : Shape := ⟨0, ![]⟩

class Facts : Prop where
  bcast_S_S4x2048x256 : S_.BroadcastsInDim S4x2048x256 (![] : Fin 0 → Fin S4x2048x256.rank)
  reducesTo_S4x2048x256_S_d0_1_2 : S4x2048x256.ReducesTo [0, 1, 2] S_
  h_S_ : 0 < S_.numel

variable [Facts]

def fn {F : FTy → Type} [FloatOps F] (main_arg0 : FVec F S4x2048x256 .f32) : IVec S_ 1 :=
  let main_v0 : FVec F S4x2048x256 .f32 := Host.absf main_arg0
  let main_cst : FVec F S_ .f32 := constant S_ .f32 0x7F800000#32
  let main_v1 : FVec F S4x2048x256 .f32 := broadcastInDim S4x2048x256 ![] bcast_S_S4x2048x256 main_cst
  let main_v2 : IVec S4x2048x256 1 := cmpf .olt main_v0 main_v1
  let main_c : IVec S_ 1 := constantI S_ 1 1#1
  let main_v3 : IVec S_ 1 := (fun x v => Host.reduce IntOp.andi x v reducesTo_S4x2048x256_S_d0_1_2 h_S_) main_v2 main_c
  main_v3
-- ==== Kernel.lean ====
abbrev S4x2048x256 : Shape := ⟨3, ![4, 2048, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S256x256 : Shape := ⟨2, ![256, 256]⟩
abbrev S256 : Shape := ⟨1, ![256]⟩
abbrev S256x1 : Shape := ⟨2, ![256, 1]⟩

abbrev nBuf : Space → Nat
  | .hbm => 16
  | .vmem => 5
  | .smem => 0
  | _ => 0

abbrev bufTy : (tb : Table) → Fin (tcTables nBuf tb) → BufTy
  | .hbm, ⟨0, _⟩ => ⟨S4x2048x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .bf16⟩
  | .hbm, ⟨13, _⟩ => ⟨S256x8192, .bf16⟩
  | .hbm, ⟨14, _⟩ => ⟨S8192x256, .f32⟩
  | .hbm, ⟨15, _⟩ => ⟨S4x2048x256, .f32⟩
  | .local _ .vmem, ⟨0, _⟩ => ⟨S8192x256, .f32⟩
  | .local _ .vmem, ⟨1, _⟩ => ⟨S8192x256, .bf16⟩
  | .local _ .vmem, ⟨2, _⟩ => ⟨S256x8192, .bf16⟩
  | .local _ .vmem, ⟨3, _⟩ => ⟨S256x256, .f32⟩
  | .local _ .vmem, ⟨4, _⟩ => ⟨S256x256, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x256_S8192x256 : S4x2048x256.ShapeCasts S8192x256
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  transposes_S8192x256_S256x8192_1_0 : S8192x256.Transposes [1, 0] S256x8192
  h_S256x256 : 0 < S256x256.numel
  shapeCasts_S256x256_S256x256 : S256x256.ShapeCasts S256x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S256x8192_S256 : S256x8192.Reduces [1] S256
  shapeCasts_S256_S256x1 : S256.ShapeCasts S256x1
  broadcasts_S256x1_S256x8192 : S256x1.Broadcasts S256x8192
  reduces_S256x256_S256 : S256x256.Reduces [1] S256
  broadcasts_S256x1_S256x256 : S256x1.Broadcasts S256x256
  inb_S256x256_S256x256_0_0 : ∀ a, (![0, 0] : Fin 2 → Nat) a + S256x256.size a ≤ S256x256.size a
  shapeCasts_S8192x256_S4x2048x256 : S8192x256.ShapeCasts S4x2048x256
  dot_S256x256_S256x8192_S256x8192_1_0_0_1_n_n_wf : DotDims.WF S256x256 S256x8192 S256x8192 [1] [0] [0] [1] [] []
  dot_S256x8192_S8192x256_S256x256_1_0_0_1_n_n_wf : DotDims.WF S256x8192 S8192x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x256.size a ≤ S8192x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S256x8192.size a
  hwx0_2 : ∀ i : grid0.Coords, EltTy.bits .bf16 = 32 ∨ (Rect.block (s := S256x8192) S256x8192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x256.size a
  hwx0_3 : ∀ i : grid0.Coords, EltTy.bits .f32 = 32 ∨ (Rect.block (s := S8192x256) S256x256.size (cc0_transform_3 i) (hinb0_3 i)).WholeWords (EltTy.packing .f32)

variable [Facts₀]

def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_v8) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x256 : Shape := ⟨3, ![4, 2048, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4x2048 : Shape := ⟨2, ![4, 2048]⟩
abbrev S4x2048x1 : Shape := ⟨3, ![4, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S8192x256, .f32⟩
  | .hbm, ⟨32, _⟩ => ⟨S_, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S4x2048x256, .f32⟩
  | .hbm, ⟨40, _⟩ => ⟨S4x2048x256, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x256, .f32⟩
  | .hbm, ⟨49, _⟩ => ⟨S4x2048x256, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_5 : Ref sig .tc := ⟨.hbm, 32, rfl⟩
abbrev main_v25 : Ref sig .tc := ⟨.hbm, 33, rfl⟩
abbrev main_v26 : Ref sig .tc := ⟨.hbm, 34, rfl⟩
abbrev main_cst_6 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_7 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_8 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  shapeCasts_S4x2048x256_S8192x256 : S4x2048x256.ShapeCasts S8192x256
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S_S8192x256 : S_.BroadcastsInDim S8192x256 (![] : Fin 0 → Fin S8192x256.rank)
  shapeCasts_S8192x256_S4x2048x256 : S8192x256.ShapeCasts S4x2048x256
  reducesTo_S4x2048x256_S4x2048_d2 : S4x2048x256.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x256_0_1_2 : S4x2048x1.BroadcastsInDim S4x2048x256 (![0, 1, 2] : Fin 3 → Fin S4x2048x256.rank)
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Spec.lean ====
/-
  One query row of attention, blended with the row itself and renormalized, over the extended reals.

  For a row `q` of `C` entries, keys `kt` given column by column (`kt k j` is entry `k` of key `j`), and
  values `v` (`v j c` is entry `c` of value `j`), over `N` keys:

    score  j = Σ_k q k · kt k j
    weight j = exp (score j − M) / Σ_j' exp (score j' − M),   M = the maximum of the scores, taken from −∞
    mix    c = q c · w₁ + (Σ_j weight j · v j c) · w₂
    out    c = mix c / max (sqrt (Σ_c' mix c' · mix c'), ε)

  The four float literals are kept as the binary words both programs print; none is ever evaluated.
  Also here: the two identities of the extended reals that the scores' trivial rescaling needs (the product with the
  word that denotes 1, the quotient by it), and that a maximum folded from a starting value is never below it.
-/
import Idealize.ShloMosaic.PureOps.Ideal
import Idealize.ShloMosaic.PureOps.Ideal.Laws
import Idealize.ShloMosaic.PureOps.IdealRules

noncomputable section

open scoped BigOperators

namespace Cert.Attn

open Idealize.ShloMosaic

/-- The word of −∞, the row maximum's starting value. -/
abbrev negInf : EReal := Ideal.ofBits .f32 0xFF800000#32
/-- The weight of the row itself in the blend. -/
abbrev wSelf : EReal := Ideal.ofBits .f32 0x3F4CCCCD#32
/-- The weight of the attended mixture in the blend. -/
abbrev wMix : EReal := Ideal.ofBits .f32 0x3E4CCCCD#32
/-- The floor under the norm. -/
abbrev normFloor : EReal := Ideal.ofBits .f32 0x2B8CBCCC#32

variable {C N : ℕ}

/-- The inner products of a row with every key. -/
def score (q : Fin C → EReal) (kt : Fin C → Fin N → EReal) (j : Fin N) : EReal := ∑ k : Fin C, q k * kt k j

/-- The largest score, the maximum folded from −∞. -/
def top (s : Fin N → EReal) : EReal := (Finset.univ : Finset (Fin N)).fold max negInf s

/-- The softmax weights of a row of scores. -/
def weight (s : Fin N → EReal) (j : Fin N) : EReal :=
  Ideal.div (Ideal.exp (s j - top s)) (∑ j' : Fin N, Ideal.exp (s j' - top s))

/-- The row blended with the weighted mixture of the values. -/
def mix (q : Fin C → EReal) (a : Fin N → EReal) (v : Fin N → Fin C → EReal) (c : Fin C) : EReal :=
  q c * wSelf + (∑ j : Fin N, a j * v j c) * wMix

/-- A row divided by its Euclidean norm, the norm kept above the floor. -/
def unit (x : Fin C → EReal) (c : Fin C) : EReal :=
  Ideal.div (x c) (max (Ideal.sqrt (∑ c' : Fin C, x c' * x c')) normFloor)

/-- One output row. -/
def rowOut (q : Fin C → EReal) (kt : Fin C → Fin N → EReal) (v : Fin N → Fin C → EReal) (c : Fin C) : EReal :=
  unit (mix q (weight (score q kt)) v) c

/-- The whole array, row by row: row `r` of `f` attends to every row of `f`. -/
def attend {R : ℕ} (f : Fin R → Fin C → EReal) (r : Fin R) (c : Fin C) : EReal :=
  rowOut (fun k => f r k) (fun k j => f j k) (fun j k => f j k) c

/-- The word `0x3F800000` denotes 1. -/
theorem one_word : Ideal.ofBits .f32 0x3F800000#32 = 1 := IdealRules.sign_bit.ideal_onePat .f32

/-- The product with the word of 1 changes nothing, at the infinities too. -/
theorem mul_one_word (x : EReal) : x * Ideal.ofBits .f32 0x3F800000#32 = x := by
  rw [one_word, mul_one]

/-- Nor does the quotient by it. -/
theorem div_one_word (x : EReal) : Ideal.div x (Ideal.ofBits .f32 0x3F800000#32) = x := by
  rw [one_word, ← EReal.coe_one, Ideal.div_coe one_ne_zero, div_one, EReal.coe_one, mul_one]

/-- A maximum folded from a starting value is at least that value, so taking the maximum with it again changes nothing. -/
theorem max_fold_self {ι : Type} (S : Finset ι) (a : EReal) (s : ι → EReal) : max a (S.fold max a s) = S.fold max a s :=
  max_eq_right ((Finset.le_fold_max a).mpr (Or.inl le_rfl))

/-- The word of zero is 0: a sum started from it is the sum. -/
theorem zero_word_add (x : EReal) : Ideal.ofBits .f32 0x00000000#32 + x = x := by
  rw [Ideal.ofBits_zero_f32, zero_add]

end Cert.Attn

end
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibRowMax.lean ====
/-
  The maximum along the lanes of an `[a, b]` array, read at a row, at the ideal values.

  In a kernel (`vector.multi_reduction <maximumf>` over axis 1, started from the word of −∞) and on the host (a
  one-operand `stablehlo.reduce` over axis 1 whose body is the maximum) the entry at row `p` is the same thing: the
  maximum, folded from the starting value over the `b` entries of that row, in any order.  Both are stated with the
  row's entries written `src (ix2 p k)`, so the two sides of a kernel-against-reference proof meet as one fold.
-/
import Idealize.ShloMosaic.Lib.ValueIdx
import Idealize.ShloMosaic.PureOps.Ideal.Laws

noncomputable section

namespace Cert.Lib.RowMax

open Idealize.ShloMosaic Idealize.ShloMosaic.ValueIdx

/-- A kernel's lane maximum of an `[a, b]` tile, at row `p`: the fold of `max` from the word of −∞ over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun g => (Finset.univ : Finset (Fin b)).fold max (Ideal.ofBits .f32 0xFF800000#32) g) (funext fun k => ?_)
  exact congrArg src (funext fun ax => Fin.ext (by match ax with | ⟨0, _⟩ => rfl | ⟨1, _⟩ => rfl))

/-- The host's maximum over axis 1 of an `[a, b]` array, at row `r`: the fold of `max` from the initial value over the row. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  refine congrArg (fun g => (Finset.univ : Finset (Fin b)).fold max (init (Shape.Idx.first hu)) g) (funext fun k => ?_)
  exact congrArg x (funext fun ax => Fin.ext (by match ax with | ⟨0, _⟩ => rfl | ⟨1, _⟩ => rfl))

end Cert.Lib.RowMax

end
-- ==== Proof.KernelTile.lean ====
/-
  What the kernel body stores for one block of 256 query rows, read at an entry, at the ideal values.

  The body's one store is a tree of operations over three loaded tiles: the block's 256 query rows `v3`, the keys
  column by column `v6` (256 × 8192) and the values `v8` (8192 × 256).  Cut at its natural joints it is: the
  scores (a matrix product into zero, times the word of 1), their exponentials after subtracting each row's maximum,
  those divided by each row's sum, the product with the values, the blend with the query rows, and the division by
  each row's norm kept above its floor.  Each joint is read at an entry `(p, ·)` from the entries of row `p` alone, so
  the stored block at `(p, c)` is one output row of the attention specification, entry `c`: its query is row `p` of
  `v3`, its keys `v6`, its values `v8`.  A change of float format is the identity here, and a cast of a tile to its
  own shape reads back the tile.
-/
import proofs.«112245_j63780264346004_1_alg».proof.Proof.Gen.KernelIdeal.Skeleton
import proofs.«112245_j63780264346004_1_alg».proof.Proof.Spec
import proofs.«112245_j63780264346004_1_alg».proof.Proof.LibKeepdims
import proofs.«112245_j63780264346004_1_alg».proof.Proof.LibMatmul2
import proofs.«112245_j63780264346004_1_alg».proof.Proof.LibRowMax
import Idealize.ShloMosaic.Lib.ValueIdx
import Idealize.ShloMosaic.Lib.Pipeline.Value

noncomputable section

open scoped BigOperators

namespace Cert.KernelIdeal.Tile

open Cert.KernelIdeal Cert.KernelIdeal.Gen Idealize.ShloMosaic Idealize.ShloMosaic.ValueIdx
open Cert.Attn Cert.Lib.Keepdims Cert.Lib.RowMax

variable (v3 : Vec Ideal S256x256 .f32) (v6 : Vec Ideal S256x8192 .bf16) (v8 : Vec Ideal S8192x256 .bf16)

/-- The query rows as the body first casts them. -/
def qTile : FVec Ideal S256x256 .f32 := shapeCast S256x256 v3 shapeCasts_S256x256_S256x256

/-- The scores of the block's rows against every key. -/
def sTile : FVec Ideal S256x8192 .f32 :=
  mulf (matmul dot_S256x256_S256x8192_S256x8192_1_0_0_1_n_n none (truncf .bf16 (qTile v3) bitsLt_bf16_f32)
      (shapeCast S256x8192 v6 shapeCasts_S256x8192_S256x8192 : FVec Ideal S256x8192 .bf16) (constant S256x8192 .f32 0x00000000#32))
    (broadcast S256x8192 (Scalar.ofBits .f32 0x3F800000#32))

/-- The exponentials of the scores less their row's maximum. -/
def eTile (s : FVec Ideal S256x8192 .f32) : FVec Ideal S256x8192 .f32 :=
  exp (subf s (broadcastTo S256x8192 (shapeCast S256x1
    (multiReduction .maximumf [1] S256 s 0xFF800000#32 reduces_S256x8192_S256 (.inl rfl) rfl) shapeCasts_S256_S256x1)
    broadcasts_S256x1_S256x8192))

/-- Each exponential divided by its row's sum. -/
def aTile (e : FVec Ideal S256x8192 .f32) : FVec Ideal S256x8192 .f32 :=
  divf e (broadcastTo S256x8192 (shapeCast S256x1
    (multiReduction .add [1] S256 e 0x00000000#32 reduces_S256x8192_S256 (.inl rfl) rfl) shapeCasts_S256_S256x1)
    broadcasts_S256x1_S256x8192)

/-- The weights times the values. -/
def avTile (a : FVec Ideal S256x8192 .f32) : FVec Ideal S256x256 .f32 :=
  matmul dot_S256x8192_S8192x256_S256x256_1_0_0_1_n_n none (truncf .bf16 a bitsLt_bf16_f32)
    (shapeCast S8192x256 v8 shapeCasts_S8192x256_S8192x256 : FVec Ideal S8192x256 .bf16) (constant S256x256 .f32 0x00000000#32)

/-- The blend of the query rows with the attended rows. -/
def mixTile (q av : FVec Ideal S256x256 .f32) : FVec Ideal S256x256 .f32 :=
  addf (mulf q (broadcast S256x256 (Scalar.ofBits .f32 0x3F4CCCCD#32)))
    (mulf av (broadcast S256x256 (Scalar.ofBits .f32 0x3E4CCCCD#32)))

/-- Each row over its norm, the norm kept above its floor. -/
def unitTile (x : FVec Ideal S256x256 .f32) : FVec Ideal S256x256 .f32 :=
  divf x (broadcastTo S256x256 (maximumf (sqrt (shapeCast S256x1
      (multiReduction .add [1] S256 (mulf x x) 0x00000000#32 reduces_S256x256_S256 (.inl rfl) rfl) shapeCasts_S256_S256x1))
    (broadcast S256x1 (Scalar.ofBits .f32 0x2B8CBCCC#32))) broadcasts_S256x1_S256x256)

/-- The body's stored value is these joints composed. -/
theorem pay_eq : k0_pay1 (F := Ideal) v3 v6 v8
    = unitTile (mixTile (qTile v3) (avTile v8 (aTile (eTile (sTile v3 v6))))) := rfl

/-! ## Each joint read at an entry -/

theorem qTile_apply (p k : Fin 256) : qTile v3 (ix2 p k) = v3 (ix2 p k) :=
  congrFun (shapeCast_self v3 shapeCasts_S256x256_S256x256) (ix2 p k)

/-- A score is the inner product of the query row with the key's column. -/
theorem sTile_apply (p : Fin 256) (j : Fin 8192) :
    sTile v3 v6 (ix2 p j) = score (fun k => v3 (ix2 p k)) (fun k j => v6 (ix2 k j)) j := by
  show FloatOps.matmul dot_S256x256_S256x8192_S256x8192_1_0_0_1_n_n none (truncf .bf16 (qTile v3) bitsLt_bf16_f32)
      (shapeCast S256x8192 v6 shapeCasts_S256x8192_S256x8192 : FVec Ideal S256x8192 .bf16) (constant S256x8192 .f32 0x00000000#32) (ix2 p j)
      * Ideal.ofBits .f32 0x3F800000#32 = _
  rw [mul_one_word]
  refine (LibMatmul2.matmul_nn_apply (m := 256) (k := 256) (n := 8192) dot_S256x256_S256x8192_S256x8192_1_0_0_1_n_n_wf none
    (truncf .bf16 (qTile v3) bitsLt_bf16_f32) (shapeCast S256x8192 v6 shapeCasts_S256x8192_S256x8192 : FVec Ideal S256x8192 .bf16) p j).trans ?_
  unfold score
  refine Finset.sum_congr rfl fun k _ => ?_
  show qTile v3 (ix2 p k) * (shapeCast S256x8192 v6 shapeCasts_S256x8192_S256x8192 : FVec Ideal S256x8192 .bf16) (ix2 k j) = _
  rw [qTile_apply, shapeCast_self]

/-- An exponential's argument is the score less the largest score of its row. -/
theorem eTile_apply (s : FVec Ideal S256x8192 .f32) (p : Fin 256) (j : Fin 8192) :
    eTile s (ix2 p j) = Ideal.exp (s (ix2 p j) - top (fun j' => s (ix2 p j'))) := by
  show Ideal.exp (s (ix2 p j) - broadcastTo S256x8192 (shapeCast S256x1
    (multiReduction .maximumf [1] S256 s 0xFF800000#32 reduces_S256x8192_S256 (.inl rfl) rfl) shapeCasts_S256_S256x1)
    broadcasts_S256x1_S256x8192 (ix2 p j)) = _
  rw [broadcastTo_a1_ab_apply, shapeCast_a_a1_apply, rowMax_apply]
  rfl

/-- A weight is the exponential over the sum of its row's exponentials. -/
theorem aTile_apply (e : FVec Ideal S256x8192 .f32) (p : Fin 256) (j : Fin 8192) :
    aTile e (ix2 p j) = Ideal.div (e (ix2 p j)) (∑ j' : Fin 8192, e (ix2 p j')) := by
  show Ideal.div (e (ix2 p j)) (broadcastTo S256x8192 (shapeCast S256x1
    (multiReduction .add [1] S256 e 0x00000000#32 reduces_S256x8192_S256 (.inl rfl) rfl) shapeCasts_S256_S256x1)
    broadcasts_S256x1_S256x8192 (ix2 p j)) = _
  rw [broadcastTo_a1_ab_apply, shapeCast_a_a1_apply, rowSum_apply]

/-- An attended entry is the weights' sum against the values' column. -/
theorem avTile_apply (a : FVec Ideal S256x8192 .f32) (p c : Fin 256) :
    avTile v8 a (ix2 p c) = ∑ j : Fin 8192, a (ix2 p j) * v8 (ix2 j c) := by
  refine (LibMatmul2.matmul_nn_apply (m := 256) (k := 8192) (n := 256) dot_S256x8192_S8192x256_S256x256_1_0_0_1_n_n_wf none
    (truncf .bf16 a bitsLt_bf16_f32) (shapeCast S8192x256 v8 shapeCasts_S8192x256_S8192x256 : FVec Ideal S8192x256 .bf16) p c).trans ?_
  refine Finset.sum_congr rfl fun j _ => ?_
  show a (ix2 p j) * (shapeCast S8192x256 v8 shapeCasts_S8192x256_S8192x256 : FVec Ideal S8192x256 .bf16) (ix2 j c) = _
  rw [shapeCast_self]

theorem mixTile_apply (q av : FVec Ideal S256x256 .f32) (p c : Fin 256) :
    mixTile q av (ix2 p c) = q (ix2 p c) * wSelf + av (ix2 p c) * wMix := rfl

/-- A row over its norm, read at an entry, is that row's unit vector there. -/
theorem unitTile_apply (x : FVec Ideal S256x256 .f32) (p c : Fin 256) :
    unitTile x (ix2 p c) = unit (fun k => x (ix2 p k)) c := by
  show Ideal.div (x (ix2 p c)) (broadcastTo S256x256 (maximumf (sqrt (shapeCast S256x1
      (multiReduction .add [1] S256 (mulf x x) 0x00000000#32 reduces_S256x256_S256 (.inl rfl) rfl) shapeCasts_S256_S256x1))
    (broadcast S256x1 (Scalar.ofBits .f32 0x2B8CBCCC#32))) broadcasts_S256x1_S256x256 (ix2 p c)) = _
  rw [broadcastTo_a1_ab_apply]
  show Ideal.div (x (ix2 p c)) (max (Ideal.sqrt (shapeCast S256x1
      (multiReduction .add [1] S256 (mulf x x) 0x00000000#32 reduces_S256x256_S256 (.inl rfl) rfl) shapeCasts_S256_S256x1 (ix2 p (0 : Fin 1))))
    normFloor) = _
  rw [shapeCast_a_a1_apply, rowSum_apply]
  rfl

/-! ## The stored block at an entry -/

/-- Entry `(p, c)` of what the body stores is entry `c` of the output row whose query is row `p` of the block. -/
theorem pay_apply (p c : Fin 256) :
    k0_pay1 (F := Ideal) v3 v6 v8 (ix2 p c)
      = rowOut (fun k => v3 (ix2 p k)) (fun k j => v6 (ix2 k j)) (fun j k => v8 (ix2 j k)) c := by
  rw [pay_eq, unitTile_apply]
  unfold rowOut
  refine congrArg (fun x => unit x c) (funext fun c' => ?_)
  rw [mixTile_apply, qTile_apply, avTile_apply]
  unfold mix
  refine congrArg (fun z => v3 (ix2 p c') * wSelf + z * wMix) (Finset.sum_congr rfl fun j _ => ?_)
  refine congrArg (· * v8 (ix2 j c')) ?_
  have hs : (fun j' => sTile v3 v6 (ix2 p j')) = score (fun k => v3 (ix2 p k)) (fun k j => v6 (ix2 k j)) :=
    funext fun j' => sTile_apply v3 v6 p j'
  rw [aTile_apply]
  unfold weight
  simp only [eTile_apply, hs, sTile_apply]

end Cert.KernelIdeal.Tile

end
-- ==== Proof.KernelValue.lean ====
/-
  The kernel's result after the run, as one function of the three arrays the region stages.

  The grid has 32 points; point `t` computes rows `256·t … 256·t + 255` of the output.  Its body reads its 256 query
  rows out of the first staged array at row offset `256·t`, and the other two staged arrays whole; its one store
  covers the output block.  So what point `t` writes back is block `t` of ONE function `G` of the three staged arrays:
  row `r` of `G` is the output row of the attention specification whose query is row `r` of the first array.  The 32
  blocks tile the 8192 rows, so after the run the output array is `G`, and the reshape after the region reads it at
  row `2048·b + n` for the result's entry `(b, n, ·)`.
-/
import proofs.«112245_j63780264346004_1_alg».proof.Proof.Gen.KernelIdeal.Frame
import proofs.«112245_j63780264346004_1_alg».proof.Proof.KernelTile
import Idealize.ShloMosaic.Lib.Pipeline.Value
import Idealize.ShloMosaic.Lib.StableHlo.Run
import Idealize.ShloMosaic.Lib.Tactic

noncomputable section

open scoped BigOperators

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat)
open Cert.Attn

theorem hz : (![0, 0] : Fin 2 → Nat) = fun _ => 0 := funext fun a => by fin_cases a <;> rfl

/-- What the body leaves in the output's staging buffer: its one covering store's value, computed from the 256 rows
    of the first input that start at the point's row offset, and from the other two inputs whole. -/
theorem stored_eq {F : FTy → Type} [FloatOps F] (c : Dev nD) (i : grid0.Coords)
    (a1 : Memref sig .tc .vmem S8192x256 .f32) (h1 : a1.IsWhole) (a2 : Memref sig .tc .vmem S8192x256 .bf16) (h2 : a2.IsWhole)
    (a3 : Memref sig .tc .vmem S256x8192 .bf16) (h3 : a3.IsWhole) (a4 : Memref sig .tc .vmem S256x256 .f32) (h4 : a4.IsWhole)
    (x0 : Vec F S8192x256 .f32) (x1 : Vec F S8192x256 .bf16) (x2 : Vec F S256x8192 .bf16) :
    out0_A_3 c i a1 h1 a2 h2 a3 h3 a4 h4 x0 x1 x2
      = k0_pay1 (View.ld x0 (Rect.unit (s := S8192x256) (k0_off1 i) S256x256.size (k0_off1_inb i))) x2 x1 := by
  unfold out0_A_3
  rw [View.read_writes_eq_canon _ _ _ (cover0_A_3 c i a1 h1 a2 h2 a3 h3 a4 h4 x0 x1 x2)]
  unfold kernelRun0_A
  dsimp only
  rw [View.canon_unit_zero hz]
  simp only [View.readAt_eq_ld, h1.read_unread, h2.read_unread, h3.read_unread, View.ld_unit_zero (S := S256x8192) hz,
    View.ld_unit_zero (S := S8192x256) hz]

/-- The printed index maps and the body's row offset, decided once over the 32 grid points: the output's block is
    block `t` of the rows, each input's block is the whole array, and the body reads its query rows from row `256·t`. -/
theorem idx_facts : ∀ t : Fin cfg0.N, win0_3.index t (0 : Fin 2) = t.val ∧ win0_3.index t (1 : Fin 2) = 0
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ k0_off1 (grid0.coords t) (0 : Fin 2) = 256 * t.val ∧ k0_off1 (grid0.coords t) (1 : Fin 2) = 0 :=
  (by decide +kernel : ∀ t : Fin grid0.N, _)

variable (m : (ℓ : Loc nD τ sig) → Buf (Elt Ideal) ℓ) (ρ : Dev nD → PrngReg)

/-- The output array as a function of the three arrays the region stages: row `r` is the output row whose query is
    row `r` of the first, whose keys are the third read column by column, and whose values are the second. -/
def G (A : S8192x256.Idx → EReal) (Av : S8192x256.Idx → EReal) (At : S256x8192.Idx → EReal) : S8192x256.Idx → EReal :=
  fun i => rowOut (fun k : Fin 256 => A (ix2 (⟨(i 0).val, idx2_lt0 i⟩ : Fin 8192) k)) (fun (k : Fin 256) (j : Fin 8192) => At (ix2 k j))
    (fun (j : Fin 8192) (k : Fin 256) => Av (ix2 j k)) (⟨(i 1).val, idx2_lt1 i⟩ : Fin 256)

/-- WHAT POINT `t` WRITES BACK is block `t` of `G` of the arrays as the region finds them. -/
theorem flushed_eq (c : Dev nD) (t : Fin cfg0.N) :
    (dats m 0 c).flushed 3 t
      = ((cfg0.win 3).blk t).view.read (Elt Ideal) (G (V m c main_v8) (V m c main_v9) (V m c main_v10)) := by
  show (cfg0.win 3).cut (grid0.coords t) ((dats m 0 c).after 3 t) = _
  rw [after0_3]
  unfold outsAt0
  rw [stored_eq]
  obtain ⟨e30, e31, e00, e01, e10, e11, e20, e21, eo0, eo1⟩ := idx_facts t
  funext y
  have hy0 : (y 0).val < 256 := (y 0).isLt
  have hy1 : (y 1).val < 256 := (y 1).isLt
  obtain ⟨p, q, rfl⟩ : ∃ (p q : Fin 256), y = ix2 p q :=
    ⟨⟨(y 0).val, hy0⟩, ⟨(y 1).val, hy1⟩, funext fun a => by match a with | ⟨0, _⟩ => rfl | ⟨1, _⟩ => rfl⟩
  show k0_pay1 (F := Ideal) (View.ld (iblk m c 0 t) (Rect.unit (s := S8192x256) (k0_off1 (grid0.coords t)) S256x256.size (k0_off1_inb (grid0.coords t))))
      (iblk m c 2 t) (iblk m c 1 t) (ix2 p q) = _
  refine (Tile.pay_apply _ _ _ p q).trans ?_
  rw [View.read_apply]
  unfold G
  have hp := p.isLt
  have hq := q.isLt
  -- the query rows: row `p` of the body's 256 rows is row `256·t + p` of the first array
  have hrow : (fun k : Fin 256 => View.ld (iblk m c 0 t) (Rect.unit (s := S8192x256) (k0_off1 (grid0.coords t)) S256x256.size (k0_off1_inb (grid0.coords t))) (ix2 p k))
      = fun k : Fin 256 => V m c main_v8 (ix2 (⟨((((cfg0.win 3).blk t).view.emb (ix2 p q)) 0).val, idx2_lt0 _⟩ : Fin 8192) k) := by
    funext k
    have hk := k.isLt
    show V m c main_v8 (((cfg0.win 0).blk t).view.emb ((Rect.unit (s := S8192x256) (k0_off1 (grid0.coords t)) S256x256.size (k0_off1_inb (grid0.coords t))).idx (ix2 p k))) = _
    refine congrArg (V m c main_v8) (funext fun a => Fin.ext ?_)
    match a with
    | ⟨0, _⟩ =>
      show win0_0.index t (0 : Fin 2) * 8192 + 1 * (k0_off1 (grid0.coords t) (0 : Fin 2) + 1 * p.val) = win0_3.index t (0 : Fin 2) * 256 + 1 * p.val
      rw [e00, eo0, e30]; omega
    | ⟨1, _⟩ =>
      show win0_0.index t (1 : Fin 2) * 256 + 1 * (k0_off1 (grid0.coords t) (1 : Fin 2) + 1 * k.val) = k.val
      rw [e01, eo1]; omega
  -- the keys, column by column: the third array whole
  have hkeys : (fun (k : Fin 256) (j : Fin 8192) => iblk m c 2 t (ix2 k j)) = fun (k : Fin 256) (j : Fin 8192) => V m c main_v10 (ix2 k j) := by
    funext k j
    have hk := k.isLt
    have hj := j.isLt
    show V m c main_v10 (((cfg0.win 2).blk t).view.emb (ix2 k j)) = _
    refine congrArg (V m c main_v10) (funext fun a => Fin.ext ?_)
    match a with
    | ⟨0, _⟩ => show win0_2.index t (0 : Fin 2) * 256 + 1 * k.val = k.val; rw [e20]; omega
    | ⟨1, _⟩ => show win0_2.index t (1 : Fin 2) * 8192 + 1 * j.val = j.val; rw [e21]; omega
  -- the values: the second array whole
  have hvals : (fun (j : Fin 8192) (k : Fin 256) => iblk m c 1 t (ix2 j k)) = fun (j : Fin 8192) (k : Fin 256) => V m c main_v9 (ix2 j k) := by
    funext j k
    have hk := k.isLt
    have hj := j.isLt
    show V m c main_v9 (((cfg0.win 1).blk t).view.emb (ix2 j k)) = _
    refine congrArg (V m c main_v9) (funext fun a => Fin.ext ?_)
    match a with
    | ⟨0, _⟩ => show win0_1.index t (0 : Fin 2) * 8192 + 1 * j.val = j.val; rw [e10]; omega
    | ⟨1, _⟩ => show win0_1.index t (1 : Fin 2) * 256 + 1 * k.val = k.val; rw [e11]; omega
  have hcol : q = (⟨((((cfg0.win 3).blk t).view.emb (ix2 p q)) 1).val, idx2_lt1 _⟩ : Fin 256) := Fin.ext (by
    show q.val = win0_3.index t (1 : Fin 2) * 256 + 1 * q.val
    rw [e31]; omega)
  rw [hrow, hkeys, hvals]
  exact congrArg _ hcol

/-- An index of the array is in point `t`'s block iff each coordinate is in the block's range on its axis. -/
theorem mem_blk (t : Fin cfg0.N) (i : S8192x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v11).slice (win0_3.rect t)).set ↔ _
  rw [View.set_slice_whole, Rect.mem_set_unit]
  exact Iff.rfl

/-- Every row of the output lies in some point's block: row `r` in point `r / 256`'s. -/
theorem cover (i : S8192x256.Idx) : ∃ t : Fin cfg0.N, (cfg0.win 3).flush t = true ∧ i ∈ ((cfg0.win 3).blk t).view.set := by
  have hN : cfg0.N = 32 := N_0
  have h0 : (i 0).val < 8192 := (i 0).isLt
  have h1 : (i 1).val < 256 := (i 1).isLt
  have ht : (i 0).val / 256 < cfg0.N := by rw [hN]; omega
  obtain ⟨e30, e31, -⟩ := idx_facts ⟨(i 0).val / 256, ht⟩
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    rw [e30]; show (i 0).val / 256 * 256 ≤ (i 0).val ∧ (i 0).val < (i 0).val / 256 * 256 + 256; omega
  | ⟨1, _⟩ =>
    show win0_3.index ⟨(i 0).val / 256, ht⟩ (1 : Fin 2) * 256 ≤ (i 1).val ∧ (i 1).val < win0_3.index ⟨(i 0).val / 256, ht⟩ (1 : Fin 2) * 256 + 256
    rw [e31]; omega

/-- THE OUTPUT ARRAY after the run is `G` of the staged arrays. -/
theorem final (c : Dev nD) : (dats m 0 c).arrAt 3 cfg0.N = G (V m c main_v8) (V m c main_v9) (V m c main_v10) :=
  (dats m 0 c).arrAt_eq_of_cover 3 _ (fun t _ => flushed_eq m c t) cover

end Cert.KernelIdeal.Value

end
-- ==== Proof.KernelRun.lean ====
/-
  The kernel's run, read: the result buffer after the reshape that follows the region.

  The region's output array ends as `G` of the staged arrays (the blocks-to-array module).  The one host operation after
  the region reshapes that 8192 × 256 array to 4 × 2048 × 256, so the result's entry `(b, n, k)` is `G` at row
  `2048·b + n`, lane `k`: both have the same row-major position.  The argument array is never written.
-/
import proofs.«112245_j63780264346004_1_alg».proof.Proof.KernelValue

noncomputable section

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat)
open Cert.Attn

variable (m : (ℓ : Loc nD τ sig) → Buf (Elt Ideal) ℓ) (ρ : Dev nD → PrngReg)

/-- The result buffer: the output array reshaped. -/
def result (c : Dev nD) : Buf (Elt Ideal) ((c : Thread nD τ).loc main_v12) :=
  shapeCast S4x2048x256 (G (V m c main_v8) (V m c main_v9) (V m c main_v10)) shapeCasts_S8192x256_S4x2048x256

/-- What the lines after the region leave in the result buffer. -/
theorem tail_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.devRef .tc main_v11)
      = (dats m 0 c).arrAt 3 cfg0.N :=
    Pipeline.withArrays_arr spec0 launch0.win.arr_inj c (V0 m c) (fun w => (dats m 0 c).arrAt w cfg0.N) 3
  funext i
  show shapeCast S4x2048x256 (Pipeline.withArrays (cfgs 0).spec c (V0 m c) (fun w => (dats m 0 c).arrAt w (cfgs 0).N) (Proc.devRef .tc main_v11))
    shapeCasts_S8192x256_S4x2048x256 i = _
  rw [hw, final]
  rfl

/-- The result at `(b, n, k)` is the output array at row `2048·b + n`, lane `k`. -/
theorem result_apply (c : Dev nD) (b : Fin 4) (n : Fin 2048) (k : Fin 256) :
    result m c (ix3 b n k)
      = G (V m c main_v8) (V m c main_v9) (V m c main_v10)
          (ix2 (⟨b.val * 2048 + n.val, by have := b.isLt; have := n.isLt; omega⟩ : Fin 8192) k) := by
  unfold result
  exact shapeCast_apply _ shapeCasts_S8192x256_S4x2048x256 (ix3 b n k) (ix2 _ k) (by
    rewrite [Shape.rowMajor_val_two, Shape.rowMajor_val_three]
    show (b.val * 2048 + n.val) * 256 + k.val = (b.val * 2048 + n.val) * 256 + k.val
    rfl)

/-- The frame run re-posted: the result buffer at `result`, the argument unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0) :=
  (θ_run defs _ _).mono (fun r h c =>
      ⟨((h c).2 main_v12 (Pipeline.mem_restRefs_of main_v12 (by decide) (by decide))).trans (tail_eq m c),
       ((h c).2 main_arg0 (Pipeline.mem_restRefs_of main_arg0 (by decide) (by decide))).trans (W_main_arg0 m (dats m) c)⟩)
    (run_main m ρ)

end Cert.KernelIdeal.Value

end
-- ==== Proof.RefRow.lean ====
/-
  The reference's result read at an entry, at the ideal values.

  The reference works on whole arrays: the unit-norm rows `f` (8192 × 256) and their transpose, the 8192 × 8192 scores
  `f · fᵀ` divided by the word of 1, each row's maximum (taken from −∞, then once more against −∞), the exponentials,
  their row sums, the quotient, its product with `f`, the blend with `f`, the reshape to 4 × 2048 × 256, and the
  division by each row's norm kept above its floor.  Every stage's entry at row `r` depends on row `r` of the stage
  before it only, so the result at `(b, n, c)` is entry `c` of the output row of the attention specification whose
  query is row `2048·b + n` of `f`, whose keys are the transposed array read column by column, and whose values are `f`.
  The extra maximum against −∞ changes nothing (a maximum folded from −∞ is already above it); the division by the
  word of 1 changes nothing; a sum started from the word of zero is the sum.
-/
import proofs.«112245_j63780264346004_1_alg».proof.Proof.Gen.ReferenceIdeal.Read
import proofs.«112245_j63780264346004_1_alg».proof.Proof.Spec
import proofs.«112245_j63780264346004_1_alg».proof.Proof.LibRowMax
import Idealize.ShloMosaic.Lib.ValueIdx

noncomputable section

open scoped BigOperators

namespace Cert.ReferenceIdeal.Row

open Cert.ReferenceIdeal Cert.ReferenceIdeal.Gen Cert.ReferenceIdeal.Read Idealize.ShloMosaic Idealize.ShloMosaic.ValueIdx
open Cert.Attn Cert.Lib.RowMax

variable (x0 : (⟨S4x2048x256, .f32⟩ : BufTy).Contents (Elt Ideal))

/-- A score is the inner product of a row of `f` with a column of the transposed array. -/
theorem scores_apply (r j : Fin 8192) :
    val_main_v12 (F := Ideal) x0 (ix2 r j)
      = score (fun k => val_main_v8 (F := Ideal) x0 (ix2 r k)) (fun k j => val_main_v9 (F := Ideal) x0 (ix2 k j)) j := by
  rw [val_main_v12_apply, val_main_v11_apply, val_main_cst_1_apply, val_main_v10_apply]
  show Ideal.div _ (Ideal.ofBits .f32 0x3F800000#32) = _
  rw [div_one_word]
  unfold score
  refine Finset.sum_congr rfl fun k _ => ?_
  have el : lidx_main_v10 (ix2 r j) k = ix2 r k := funext fun a => by match a with | ⟨0, _⟩ => rfl | ⟨1, _⟩ => rfl
  have er : ridx_main_v10 (ix2 r j) k = ix2 k j := funext fun a => by match a with | ⟨0, _⟩ => rfl | ⟨1, _⟩ => rfl
  rw [el, er]

/-- The row maximum the softmax subtracts is the largest score of the row. -/
theorem top_apply (r : Fin 8192) :
    val_main_v15 (F := Ideal) x0 (ix1 r) = top (fun j => val_main_v12 (F := Ideal) x0 (ix2 r j)) := by
  have h13 : val_main_v13 (F := Ideal) x0 (ix1 r)
      = (Finset.univ : Finset (Fin 8192)).fold max (val_main_cst_2 (F := Ideal) (Shape.Idx.first h_S_)) (fun k => val_main_v12 (F := Ideal) x0 (ix2 r k)) :=
    hostRowMax_apply (val_main_v12 (F := Ideal) x0) (val_main_cst_2 (F := Ideal)) reducesTo_S8192x8192_S8192_d1 (by decide) h_S_ r
  rw [val_main_v15_apply, val_main_v14_apply, val_main_cst_3_apply, h13, val_main_cst_2_apply]
  exact max_fold_self _ _ _

/-- An exponential's argument is the score less the largest score of its row. -/
theorem exps_apply (r j : Fin 8192) :
    val_main_v19 (F := Ideal) x0 (ix2 r j)
      = Ideal.exp (val_main_v12 (F := Ideal) x0 (ix2 r j) - top (fun j' => val_main_v12 (F := Ideal) x0 (ix2 r j'))) := by
  rw [val_main_v19_apply, val_main_v18_apply, val_main_v17_apply, val_main_v16_apply]
  have e : idx_main_v16 (idx_main_v17 (ix2 r j)) = ix1 r := funext fun a => by match a with | ⟨0, _⟩ => rfl
  rw [e, top_apply]
  rfl

/-- The softmax's denominator is the sum of the row's exponentials. -/
theorem sums_apply (r : Fin 8192) :
    val_main_v20 (F := Ideal) x0 (ix1 r) = ∑ j : Fin 8192, val_main_v19 (F := Ideal) x0 (ix2 r j) := by
  rw [val_main_v20_apply, val_main_cst_4_apply]
  show Ideal.ofBits .f32 0x00000000#32 + _ = _
  rw [zero_word_add]
  exact Finset.sum_congr rfl fun k _ => congrArg _ (funext fun a => by match a with | ⟨0, _⟩ => rfl | ⟨1, _⟩ => rfl)

/-- The attention weights of row `r` are the softmax of its scores. -/
theorem weights_apply (r j : Fin 8192) :
    val_main_v23 (F := Ideal) x0 (ix2 r j) = weight (fun j' => val_main_v12 (F := Ideal) x0 (ix2 r j')) j := by
  rw [val_main_v23_apply, val_main_v22_apply, val_main_v21_apply]
  have e : idx_main_v21 (idx_main_v22 (ix2 r j)) = ix1 r := funext fun a => by match a with | ⟨0, _⟩ => rfl
  rw [e, sums_apply]
  unfold weight
  simp only [exps_apply]
  rfl

/-- An attended entry is the weights' sum against a column of `f`. -/
theorem attended_apply (r : Fin 8192) (c : Fin 256) :
    val_main_v24 (F := Ideal) x0 (ix2 r c)
      = ∑ j : Fin 8192, val_main_v23 (F := Ideal) x0 (ix2 r j) * val_main_v8 (F := Ideal) x0 (ix2 j c) := by
  rw [val_main_v24_apply]
  refine Finset.sum_congr rfl fun k _ => ?_
  have el : lidx_main_v24 (ix2 r c) k = ix2 r k := funext fun a => by match a with | ⟨0, _⟩ => rfl | ⟨1, _⟩ => rfl
  have er : ridx_main_v24 (ix2 r c) k = ix2 k c := funext fun a => by match a with | ⟨0, _⟩ => rfl | ⟨1, _⟩ => rfl
  rw [el, er]

/-- The blended row. -/
theorem mixed_apply (r : Fin 8192) (c : Fin 256) :
    val_main_v29 (F := Ideal) x0 (ix2 r c)
      = mix (fun k => val_main_v8 (F := Ideal) x0 (ix2 r k))
          (weight (score (fun k => val_main_v8 (F := Ideal) x0 (ix2 r k)) (fun k j => val_main_v9 (F := Ideal) x0 (ix2 k j))))
          (fun j k => val_main_v8 (F := Ideal) x0 (ix2 j k)) c := by
  rw [val_main_v29_apply, val_main_v26_apply, val_main_v28_apply, val_main_v25_apply, val_main_cst_5_apply,
    val_main_v27_apply, val_main_cst_6_apply, attended_apply]
  have hs : (fun j' => val_main_v12 (F := Ideal) x0 (ix2 r j')) = score (fun k => val_main_v8 (F := Ideal) x0 (ix2 r k)) (fun k j => val_main_v9 (F := Ideal) x0 (ix2 k j)) :=
    funext fun j' => scores_apply x0 r j'
  unfold mix
  simp only [weights_apply, hs]
  rfl

/-- Row `2048·b + n` of the flat arrays is row `(b, n)` of the result. -/
def rowOf (b : Fin 4) (n : Fin 2048) : Fin 8192 := ⟨b.val * 2048 + n.val, by have := b.isLt; have := n.isLt; omega⟩

/-- The reshape reads the blended rows at that row. -/
theorem reshaped_apply (b : Fin 4) (n : Fin 2048) (c : Fin 256) :
    val_main_v30 (F := Ideal) x0 (ix3 b n c) = val_main_v29 (F := Ideal) x0 (ix2 (rowOf b n) c) := by
  rw [val_main_v30_apply]
  refine congrArg _ (funext fun a => Fin.ext ?_)
  have hc := c.isLt
  match a with
  | ⟨0, _⟩ => show ((b.val * 2048 + n.val) * 256 + c.val) / 256 = b.val * 2048 + n.val; omega
  | ⟨1, _⟩ => show ((b.val * 2048 + n.val) * 256 + c.val) % 256 = c.val; omega

/-- THE REFERENCE'S RESULT at `(b, n, c)`: entry `c` of the output row of row `2048·b + n`. -/
theorem result_apply (b : Fin 4) (n : Fin 2048) (c : Fin 256) :
    val_main_v38 (F := Ideal) x0 (ix3 b n c)
      = rowOut (fun k => val_main_v8 (F := Ideal) x0 (ix2 (rowOf b n) k)) (fun k j => val_main_v9 (F := Ideal) x0 (ix2 k j))
          (fun j k => val_main_v8 (F := Ideal) x0 (ix2 j k)) c := by
  rw [val_main_v38_apply, val_main_v37_apply, val_main_v36_apply, val_main_v34_apply, val_main_v35_apply,
    val_main_cst_8_apply, val_main_v33_apply, val_main_v32_apply, val_main_cst_7_apply]
  have hk : ∀ k : Fin 256, val_main_v31 (F := Ideal) x0 (idx_main_v32 (idx_main_v33 (idx_main_v37 (ix3 b n c))) k)
      = mix (fun k => val_main_v8 (F := Ideal) x0 (ix2 (rowOf b n) k))
          (weight (score (fun k => val_main_v8 (F := Ideal) x0 (ix2 (rowOf b n) k)) (fun k j => val_main_v9 (F := Ideal) x0 (ix2 k j))))
          (fun j k => val_main_v8 (F := Ideal) x0 (ix2 j k)) k
        * mix (fun k => val_main_v8 (F := Ideal) x0 (ix2 (rowOf b n) k))
          (weight (score (fun k => val_main_v8 (F := Ideal) x0 (ix2 (rowOf b n) k)) (fun k j => val_main_v9 (F := Ideal) x0 (ix2 k j))))
          (fun j k => val_main_v8 (F := Ideal) x0 (ix2 j k)) k := fun k => by
    have e : idx_main_v32 (idx_main_v33 (idx_main_v37 (ix3 b n c))) k = ix3 b n k :=
      funext fun a => by match a with | ⟨0, _⟩ => rfl | ⟨1, _⟩ => rfl | ⟨2, _⟩ => rfl
    rw [e, val_main_v31_apply, reshaped_apply, mixed_apply]
    rfl
  simp only [hk, reshaped_apply, mixed_apply]
  show Ideal.div _ (max (Ideal.sqrt (Ideal.ofBits .f32 0x00000000#32 + _)) normFloor) = _
  rw [zero_word_add]
  rfl

end Cert.ReferenceIdeal.Row

end
-- ==== Proof.Bridge.lean ====
/-
  The two programs compute one function of the argument.

  Before its region the kernel's program normalizes the rows of the flattened argument exactly as the reference does —
  the same eleven host operations in the same order — then changes the float format (the identity at the ideal values)
  and transposes.  So the three arrays the region stages are the reference's own stages: the unit-norm rows `f` (twice)
  and their transpose.  With that, the kernel's result at `(b, n, k)` and the reference's are the same output row of
  the attention specification, read at the same entry.
-/
import proofs.«112245_j63780264346004_1_alg».proof.Proof.KernelRun
import proofs.«112245_j63780264346004_1_alg».proof.Proof.RefRow
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.ValueIdx
open Cert.Attn

variable (m : (ℓ : Loc nD τ sig) → Buf (Elt Ideal) ℓ)

/-- The first staged array holds the unit-norm rows, as the reference computes them. -/
theorem rows_eq (c : Dev nD) :
    V m c main_v8 = Cert.ReferenceIdeal.Read.val_main_v8 (F := Ideal) (m ((c : Thread nD τ).loc main_arg0)) := by
  show StableHlo.after hostOps0 (fun b => m (c, b)) (Proc.devRef .tc main_v8) = _
  after_results
  rfl

/-- The second holds the same rows: a change of float format is the identity at the ideal values. -/
theorem vals_eq (c : Dev nD) :
    V m c main_v9 = Cert.ReferenceIdeal.Read.val_main_v8 (F := Ideal) (m ((c : Thread nD τ).loc main_arg0)) := by
  show StableHlo.after hostOps0 (fun b => m (c, b)) (Proc.devRef .tc main_v9) = _
  after_results
  rfl

/-- The third holds their transpose, as the reference computes it. -/
theorem keys_eq (c : Dev nD) :
    V m c main_v10 = Cert.ReferenceIdeal.Read.val_main_v9 (F := Ideal) (m ((c : Thread nD τ).loc main_arg0)) := by
  show StableHlo.after hostOps0 (fun b => m (c, b)) (Proc.devRef .tc main_v10) = _
  after_results
  rfl

/-- THE KERNEL'S RESULT IS THE REFERENCE'S: entry by entry both are the output row of row `2048·b + n` of the
    unit-norm rows against all of them. -/
theorem result_eq (c : Dev nD) :
    Value.result m c = Cert.ReferenceIdeal.Read.val_main_v38 (F := Ideal) (m ((c : Thread nD τ).loc main_arg0)) := by
  funext i
  obtain ⟨b, n, k, rfl⟩ : ∃ (b : Fin 4) (n : Fin 2048) (k : Fin 256), i = ix3 b n k :=
    ⟨⟨(i 0).val, (i 0).isLt⟩, ⟨(i 1).val, (i 1).isLt⟩, ⟨(i 2).val, (i 2).isLt⟩,
      funext fun a => by match a with | ⟨0, _⟩ => rfl | ⟨1, _⟩ => rfl | ⟨2, _⟩ => rfl⟩
  rw [Value.result_apply, Cert.ReferenceIdeal.Row.result_apply]
  unfold Value.G
  rw [rows_eq, vals_eq, keys_eq]
  rfl

end Cert.KernelIdeal.Bridge

end
-- ==== Proof.lean ====
/-
  Self-attention over 8192 unit-norm rows, blended with the rows and renormalized: the kernel against its jnp reference.

  Both programs first flatten the argument to 8192 rows of 256 entries and divide each row by its norm (kept above a
  floor), giving `f`.  The reference then forms all 8192 × 8192 scores `f · fᵀ`, takes the softmax of each row, multiplies
  by `f`, blends the result with `f` by two fixed weights, and divides each row by its norm again.  The kernel does the
  same 256 rows at a time: at grid point `t` it takes rows `256·t … 256·t + 255` of `f` as queries against all of
  `f` as keys and values, all inside one block.

  At the ideal values — floats are extended reals, every operation exact, a change of float format the identity — the
  two are one function of the argument, entry by entry: an output row depends only on its own query row and on all of
  `f`, so cutting the rows into 32 blocks changes nothing; a matrix product into a zero accumulator and the host's
  dot product are the same sum; a lane sum and the host's sum from zero are the same sum; the kernel's row maximum and
  the host's (taken from −∞, then once more against −∞) are the same fold; the kernel multiplies the scores by the word
  of 1 where the reference divides by it, and neither changes an extended real.  The two blend weights and the norm's
  floor are the same three words in both programs and are never evaluated.  No step needs the inputs to be finite.

  The three frames are the generated ones (the reference's is its generated run with the result dropped); the ideal
  pass rewrote nothing, so the kernel's idealization is its own text read at the ideal values.
-/
import proofs.«112245_j63780264346004_1_alg».proof.Defs
import proofs.«112245_j63780264346004_1_alg».proof.Proof.Gen.Kernel
import proofs.«112245_j63780264346004_1_alg».proof.Proof.Gen.Kernel.Skeleton
import proofs.«112245_j63780264346004_1_alg».proof.Proof.Gen.Kernel.Launch
import proofs.«112245_j63780264346004_1_alg».proof.Proof.Gen.Kernel.Points
import proofs.«112245_j63780264346004_1_alg».proof.Proof.Gen.Kernel.Frame
import proofs.«112245_j63780264346004_1_alg».proof.Proof.Gen.KernelIdeal
import proofs.«112245_j63780264346004_1_alg».proof.Proof.Gen.KernelIdeal.Skeleton
import proofs.«112245_j63780264346004_1_alg».proof.Proof.Gen.KernelIdeal.Launch
import proofs.«112245_j63780264346004_1_alg».proof.Proof.Gen.KernelIdeal.Points
import proofs.«112245_j63780264346004_1_alg».proof.Proof.Gen.KernelIdeal.Frame
import proofs.«112245_j63780264346004_1_alg».proof.Proof.Gen.ReferenceIdeal
import proofs.«112245_j63780264346004_1_alg».proof.Proof.Gen.ReferenceIdeal.Run
import proofs.«112245_j63780264346004_1_alg».proof.Proof.Gen.ReferenceIdeal.Read
import proofs.«112245_j63780264346004_1_alg».proof.Proof.Gen.Pre_finite_inputs
import proofs.«112245_j63780264346004_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the argument, the kernel's result buffer ends at the reshaped output array and the
    reference's at its last stage; entry by entry these are the same output row of the same unit-norm rows. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, hagree c]
  exact (Cert.KernelIdeal.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
